-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_

variable [Facts]

def fn_part1 {F : FTy → Type} [FloatOps F] (main_v13 : IVec S_ 1) (main_v16 : IVec S8x2816x1024 1) : IVec S_ 1 :=
  let main_c_5 : IVec S_ 1 := constantI S_ 1 1#1
  let main_v17 : IVec S_ 1 := (fun x v => Host.reduce IntOp.andi x v reducesTo_S8x2816x1024_S_d0_1_2 h_S_) main_v16 main_c_5
  let main_v18 : IVec S_ 1 := andi main_v13 main_v17
  main_v18

def fn {F : FTy → Type} [FloatOps F] (main_arg0 : FVec F S8x2048x1024 .f32) (main_arg1 : FVec F S8x1024x2816 .f32) (main_arg2 : FVec F S8x1024x2816 .f32) (main_arg3 : FVec F S8x2816x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x2816 .f32 := Host.absf main_arg1
  let main_cst_0 : FVec F S_ .f32 := constant S_ .f32 0x7F800000#32
  let main_v5 : FVec F S8x1024x2816 .f32 := broadcastInDim S8x1024x2816 ![] bcast_S_S8x1024x2816 main_cst_0
  let main_v6 : IVec S8x1024x2816 1 := cmpf .olt main_v4 main_v5
  let main_c_1 : IVec S_ 1 := constantI S_ 1 1#1
  let main_v7 : IVec S_ 1 := (fun x v => Host.reduce IntOp.andi x v reducesTo_S8x1024x2816_S_d0_1_2 h_S_) main_v6 main_c_1
  let main_v8 : IVec S_ 1 := andi main_v3 main_v7
  let main_v9 : FVec F S8x1024x2816 .f32 := Host.absf main_arg2
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  let main_v14 : FVec F S8x2816x1024 .f32 := Host.absf main_arg3
  let main_cst_4 : FVec F S_ .f32 := constant S_ .f32 0x7F800000#32
  let main_v15 : FVec F S8x2816x1024 .f32 := broadcastInDim S8x2816x1024 ![] bcast_S_S8x2816x1024 main_cst_4
  let main_v16 : IVec S8x2816x1024 1 := cmpf .olt main_v14 main_v15
  fn_part1 (F := F) main_v13 main_v16
-- ==== Kernel.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x2816.size a
  hwx0_1 : ∀ i : grid0.Coords, EltTy.bits .f32 = 32 ∨ (Rect.block (s := S8x1024x2816) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x2816.size a
  hwx0_2 : ∀ i : grid0.Coords, EltTy.bits .f32 = 32 ∨ (Rect.block (s := S8x1024x2816) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2816x1024.size a
  hwx0_3 : ∀ i : grid0.Coords, EltTy.bits .f32 = 32 ∨ (Rect.block (s := S8x2816x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .f32 = 32 ∨ (Rect.block (s := S8x2048x1024) S1x1024x1024.size (cc0_transform_4 i) (hinb0_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S8x2048x2816 : Shape := ⟨3, ![8, 2048, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x2048x2816, .f32⟩
  | .hbm, ⟨5, _⟩ => ⟨S8x2048x2816, .f32⟩
  | .hbm, ⟨6, _⟩ => ⟨S8x2048x2816, .f32⟩
  | .hbm, ⟨7, _⟩ => ⟨S8x2048x2816, .f32⟩
  | .hbm, ⟨8, _⟩ => ⟨S_, .f32⟩
  | .hbm, ⟨9, _⟩ => ⟨S8x2048x2816, .f32⟩
  | .hbm, ⟨10, _⟩ => ⟨S8x2048x2816, .f32⟩
  | .hbm, ⟨11, _⟩ => ⟨S_, .f32⟩
  | .hbm, ⟨12, _⟩ => ⟨S8x2048x2816, .f32⟩
  | .hbm, ⟨13, _⟩ => ⟨S8x2048x2816, .f32⟩
  | .hbm, ⟨14, _⟩ => ⟨S8x2048x2816, .f32⟩
  | .hbm, ⟨15, _⟩ => ⟨S8x2048x2816, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x2816 : S_.BroadcastsInDim S8x2048x2816 (![] : Fin 0 → Fin S8x2048x2816.rank)
  dot_S8x2048x1024_S8x1024x2816_S8x2048x2816_2_1_1_2_0_0_wf : DotDims.WF S8x2048x1024 S8x1024x2816 S8x2048x2816 [2] [1] [1] [2] [0] [0]
  dot_S8x2048x2816_S8x2816x1024_S8x2048x1024_2_1_1_2_0_0_wf : DotDims.WF S8x2048x2816 S8x2816x1024 S8x2048x1024 [2] [1] [1] [2] [0] [0]

variable [Facts₀]

def dot_S8x2048x1024_S8x1024x2816_S8x2048x2816_2_1_1_2_0_0 : DotDims S8x2048x1024 S8x1024x2816 S8x2048x2816 where
  lhsContracting := [2]
  rhsContracting := [1]
  lhsNonContracting := [1]
  rhsNonContracting := [2]
  lhsBatch := [0]
  rhsBatch := [0]
  wf := dot_S8x2048x1024_S8x1024x2816_S8x2048x2816_2_1_1_2_0_0_wf
def dot_S8x2048x2816_S8x2816x1024_S8x2048x1024_2_1_1_2_0_0 : DotDims S8x2048x2816 S8x2816x1024 S8x2048x1024 where
  lhsContracting := [2]
  rhsContracting := [1]
  lhsNonContracting := [1]
  rhsNonContracting := [2]
  lhsBatch := [0]
  rhsBatch := [0]
  wf := dot_S8x2048x2816_S8x2816x1024_S8x2048x1024_2_1_1_2_0_0_wf

class Facts : Prop extends Facts₀ where

variable [Facts]
-- ==== Proof.StepPieces.lean ====
/-
  What one grid point leaves behind, as the body's arithmetic.

  The kernel's body keeps two buffers between grid points: an accumulator (1024×1024) and a cached copy of the token
  block. A grid point is one of three kinds.
    * First step of a sweep (hidden block 0): the accumulator is zeroed and the token block cached; then the step's
      update is stored, computed from the cached copy just written and from the zeros just written.
    * Middle step: the update is stored, computed from the cached copy and the accumulator the step before left.
    * Last step (hidden block 10): as a middle step, and then the accumulator just stored is copied to the output block.
  Each lemma reads one such store back as the body's pure term (`k0_pay1` the zeros, `k0_pay2` the cached copy,
  `k0_pay3` the update, `k0_pay4` the copy out) of the values the step loaded. They hold for any float values.
-/
import proofs.«122459_j32822140076135_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the update of what the step before left, in the accumulator. -/
theorem acc_middle (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i)
    (x0 : Vec F S1x1024x1024 .f32) (x1 : Vec F S1x1024x256 .f32) (x2 : Vec F S1x1024x256 .f32) (x3 : Vec F S1x256x1024 .f32) (xs0 : Vec F S1024x1024 .f32) (xs1 : Vec F S1024x1024 .bf16) :
    sout0_B_0 c i arg3 harg3 arg4 harg4 arg5 harg5 arg6 harg6 arg7 harg7 arg8 harg8 arg9 harg9 hc0 hc1 x0 x1 x2 x3 xs0 xs1 = k0_pay3 xs1 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg9.read_unread, harg4.read_unread, harg5.read_unread, harg6.read_unread, harg8.read_unread,
    View.ld_unit_zero (S := S1024x1024) hz2, View.ld_unit_zero (S := S1x1024x256) hz3, View.ld_unit_zero (S := S1x256x1024) hz3]

/-- The last step leaves the same update in the accumulator. -/
theorem acc_last (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i)
    (x0 : Vec F S1x1024x1024 .f32) (x1 : Vec F S1x1024x256 .f32) (x2 : Vec F S1x1024x256 .f32) (x3 : Vec F S1x256x1024 .f32) (xs0 : Vec F S1024x1024 .f32) (xs1 : Vec F S1024x1024 .bf16) :
    sout0_C_0 c i arg3 harg3 arg4 harg4 arg5 harg5 arg6 harg6 arg7 harg7 arg8 harg8 arg9 harg9 hc0 hc1 x0 x1 x2 x3 xs0 xs1 = k0_pay3 xs1 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg9.read_unread, harg4.read_unread, harg5.read_unread, harg6.read_unread, harg8.read_unread,
    View.ld_unit_zero (S := S1024x1024) hz2, View.ld_unit_zero (S := S1x1024x256) hz3, View.ld_unit_zero (S := S1x256x1024) hz3]

/-- The last step leaves, in the output's staging buffer, the accumulator it has just stored, recast as a 1×1024×1024 block. -/
theorem out_last (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i)
    (x0 : Vec F S1x1024x1024 .f32) (x1 : Vec F S1x1024x256 .f32) (x2 : Vec F S1x1024x256 .f32) (x3 : Vec F S1x256x1024 .f32) (xs0 : Vec F S1024x1024 .f32) (xs1 : Vec F S1024x1024 .bf16) :
    out0_C_4 c i arg3 harg3 arg4 harg4 arg5 harg5 arg6 harg6 arg7 harg7 arg8 harg8 arg9 harg9 hc0 hc1 x0 x1 x2 x3 xs0 xs1 = k0_pay4 (k0_pay3 xs1 x1 x2 x3 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readCov_unit_zero (S := S1024x1024) _ hz2]
  simp only [View.readAt_eq_ld, harg9.read_unread, harg4.read_unread, harg5.read_unread, harg6.read_unread, harg8.read_unread,
    View.ld_unit_zero (S := S1024x1024) hz2, View.ld_unit_zero (S := S1x1024x256) hz3, View.ld_unit_zero (S := S1x256x1024) hz3]

/-- The first step of a sweep leaves, in the accumulator, the update of the zeros, computed from the copy of the token
    block it has just cached. -/
theorem acc_first (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec F S1x1024x1024 .f32) (x1 : Vec F S1x1024x256 .f32) (x2 : Vec F S1x1024x256 .f32) (x3 : Vec F S1x256x1024 .f32) :
    sout0_A_0 c i arg3 harg3 arg4 harg4 arg5 harg5 arg6 harg6 arg7 harg7 arg8 harg8 arg9 harg9 hc0 hc1 x0 x1 x2 x3 = k0_pay3 (k0_pay2 x0) x1 x2 x3 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz2]
  simp only [View.readCov_unit_zero (S := S1024x1024) _ hz2]
  simp only [View.readAt_eq_ld, harg3.read_unread, harg4.read_unread, harg5.read_unread, harg6.read_unread,
    View.ld_unit_zero (S := S1x1024x1024) hz3, View.ld_unit_zero (S := S1x1024x256) hz3, View.ld_unit_zero (S := S1x256x1024) hz3]

/-- The first step of a sweep leaves the token block, narrowed, in the cache. -/
theorem cache_first (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i)
    (x0 : Vec F S1x1024x1024 .f32) (x1 : Vec F S1x1024x256 .f32) (x2 : Vec F S1x1024x256 .f32) (x3 : Vec F S1x256x1024 .f32) :
    sout0_A_1 c i arg3 harg3 arg4 harg4 arg5 harg5 arg6 harg6 arg7 harg7 arg8 harg8 arg9 harg9 hc0 hc1 x0 x1 x2 x3 = k0_pay2 x0 := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg3.read_unread, View.ld_unit_zero (S := S1x1024x1024) hz3]

end Cert.KernelIdeal.Pieces
end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.StepPayload.lean ====
/-
  The body's arithmetic read entry by entry, at the ideal values (a float is an extended real, every operation exact,
  a change of float format the identity).

    * the zeros: every entry is 0;
    * the cached copy of the token block: entry (r, k) is the block's entry (0, r, k);
    * a projection tile: the cached 1024×1024 token tile times a 1024×256 weight tile, accumulated into zeros, is at
      (r, j) the sum over k of token(r, k) · weight(0, k, j);
    * the hidden tile: at (r, j) it is (g · σ(g)) · u of the two projection tiles g, u, with σ the logistic function;
    * the update: the accumulator plus the hidden tile times the 256×1024 down-weight tile, at (r, d)
      acc(r, d) + ∑ⱼ hidden(r, j) · down(0, j, d);
    * the copy out: entry (0, r, d) of the output block is the accumulator's entry (r, d).
-/
import proofs.«122459_j32822140076135_2_alg».proof.Proof.Gen.KernelIdeal.Skeleton
import proofs.«122459_j32822140076135_2_alg».proof.Proof.LibTileOps
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- A projection tile: the token tile times a weight tile, into zeros. -/
def projTile (a : FVec Ideal S1024x1024 .bf16) (w : FVec Ideal S1x1024x256 .f32) : FVec Ideal S1024x256 .f32 :=
  matmul dot_S1024x1024_S1024x256_S1024x256_1_0_0_1_n_n none a
    (truncf .bf16 (shapeCast S1024x256 w shapeCasts_S1x1024x256_S1024x256) bitsLt_bf16_f32)
    (constant S1024x256 .f32 0x00000000#32)

/-- The hidden tile: `(g · σ(g)) · u` of the gate and up projection tiles. -/
def hiddenTile (a : FVec Ideal S1024x1024 .bf16) (wg wu : FVec Ideal S1x1024x256 .f32) : FVec Ideal S1024x256 .f32 :=
  mulf (mulf (projTile a wg) (logistic (projTile a wg))) (projTile a wu)

/-- The hidden tile times the down-weight tile, into zeros. -/
def downTile (h : FVec Ideal S1024x256 .f32) (wd : FVec Ideal S1x256x1024 .f32) : FVec Ideal S1024x1024 .f32 :=
  matmul dot_S1024x256_S256x1024_S1024x1024_1_0_0_1_n_n none (truncf .bf16 h bitsLt_bf16_f32)
    (truncf .bf16 (shapeCast S256x1024 wd shapeCasts_S1x256x1024_S256x1024) bitsLt_bf16_f32)
    (constant S1024x1024 .f32 0x00000000#32)

/-- The update is the accumulator plus the down product of the hidden tile. -/
theorem update_eq (a : FVec Ideal S1024x1024 .bf16) (wg wu : FVec Ideal S1x1024x256 .f32) (wd : FVec Ideal S1x256x1024 .f32)
    (acc : FVec Ideal S1024x1024 .f32) :
    k0_pay3 (F := Ideal) a wg wu wd acc = addf acc (downTile (hiddenTile a wg wu) wd) := by
  unfold k0_pay3
  exact shapeCast_self _ _

theorem projTile_apply (a : FVec Ideal S1024x1024 .bf16) (w : FVec Ideal S1x1024x256 .f32) (r : Fin 1024) (j : Fin 256) :
    projTile a w (ix2 r j) = ∑ k : Fin 1024, a (ix2 r k) * w (ix3 (0 : Fin 1) k j) := by
  unfold projTile
  refine (TileOps.matmul_zero_apply _ none a _ r j).trans ?_
  refine Finset.sum_congr rfl fun k _ => congrArg (a (ix2 r k) * ·) ?_
  exact shapeCast_1ab_ab_apply w shapeCasts_S1x1024x256_S1024x256 k j

theorem hiddenTile_apply (a : FVec Ideal S1024x1024 .bf16) (wg wu : FVec Ideal S1x1024x256 .f32) (r : Fin 1024) (j : Fin 256) :
    hiddenTile a wg wu (ix2 r j)
      = (projTile a wg (ix2 r j) * Ideal.logistic (projTile a wg (ix2 r j))) * projTile a wu (ix2 r j) := rfl

theorem downTile_apply (h : FVec Ideal S1024x256 .f32) (wd : FVec Ideal S1x256x1024 .f32) (r d : Fin 1024) :
    downTile h wd (ix2 r d) = ∑ j : Fin 256, h (ix2 r j) * wd (ix3 (0 : Fin 1) j d) := by
  unfold downTile
  refine (TileOps.matmul_zero_apply _ none _ _ r d).trans ?_
  refine Finset.sum_congr rfl fun j _ => congrArg (h (ix2 r j) * ·) ?_
  exact shapeCast_1ab_ab_apply wd shapeCasts_S1x256x1024_S256x1024 j d

/-- The update at (r, d). -/
theorem update_apply (a : FVec Ideal S1024x1024 .bf16) (wg wu : FVec Ideal S1x1024x256 .f32) (wd : FVec Ideal S1x256x1024 .f32)
    (acc : FVec Ideal S1024x1024 .f32) (r d : Fin 1024) :
    k0_pay3 (F := Ideal) a wg wu wd acc (ix2 r d)
      = acc (ix2 r d) + ∑ j : Fin 256, hiddenTile a wg wu (ix2 r j) * wd (ix3 (0 : Fin 1) j d) := by
  rw [update_eq]
  exact congrArg (acc (ix2 r d) + ·) (downTile_apply _ wd r d)

/-- The zeros. -/
theorem zeros_apply (r d : Fin 1024) : k0_pay1 (F := Ideal) (ix2 r d) = 0 := by
  unfold k0_pay1
  refine (congrFun (shapeCast_self _ _) (ix2 r d)).trans ?_
  exact Ideal.ofBits_zero_f32

/-- The cached copy of the token block. -/
theorem cache_apply (x : FVec Ideal S1x1024x1024 .f32) (r k : Fin 1024) :
    k0_pay2 (F := Ideal) x (ix2 r k) = x (ix3 (0 : Fin 1) r k) := by
  unfold k0_pay2
  refine (congrFun (shapeCast_self _ _) (ix2 r k)).trans ?_
  exact shapeCast_1ab_ab_apply x shapeCasts_S1x1024x1024_S1024x1024 r k

/-- The copy out. -/
theorem copyOut_apply (acc : FVec Ideal S1024x1024 .f32) (u : Fin 1) (r d : Fin 1024) :
    k0_pay4 (F := Ideal) acc (ix3 u r d) = acc (ix2 r d) := by
  unfold k0_pay4
  exact shapeCast_ab_1ab_apply acc shapeCasts_S1024x1024_S1x1024x1024 u r d

end Cert.KernelIdeal.Payload

end
-- ==== Proof.SumBlocks.lean ====
/-
  Regrouping a finite sum into consecutive blocks, and the running sums of the blocks.

  A sum over `Fin n` with `n = B * W` is the sum over the `B` blocks of the sums over the `W` entries of each block,
  entry `j` of block `b` sitting at position `b * W + j`. A running sum over the blocks `0 … n` grows by one block
  at a time, starts at block `0` alone, and after the last block is the sum over all blocks. All of this holds in any
  commutative additive monoid: no summand needs to be finite or cancellable.
-/
import Mathlib.Algebra.BigOperators.Fin
import Mathlib.Logic.Equiv.Fin.Basic

open scoped BigOperators

namespace SumBlocks

/-- Entry `j` of block `b` lies inside `B * W`. -/
theorem blk_lt {B W : ℕ} (b : Fin B) (j : Fin W) : b.val * W + j.val < B * W := by
  have hb := b.isLt
  have hj := j.isLt
  calc b.val * W + j.val < b.val * W + W := by omega
    _ = (b.val + 1) * W := by rw [Nat.add_mul, Nat.one_mul]
    _ ≤ B * W := Nat.mul_le_mul_right W hb

/-- The position of entry `j` of block `b`, as an index below `n = B * W`. -/
def pos {n : ℕ} (B W : ℕ) (hn : n = B * W) (b : Fin B) (j : Fin W) : Fin n :=
  ⟨b.val * W + j.val, hn ▸ blk_lt b j⟩

@[simp] theorem pos_val {n : ℕ} (B W : ℕ) (hn : n = B * W) (b : Fin B) (j : Fin W) :
    (pos B W hn b j).val = b.val * W + j.val := rfl

/-- A sum over `Fin n`, `n = B * W`, block by block. -/
theorem sum_eq_sum_blocks {M : Type*} [AddCommMonoid M] {n : ℕ} (B W : ℕ) (hn : n = B * W) (f : Fin n → M) :
    ∑ i, f i = ∑ b : Fin B, ∑ j : Fin W, f (pos B W hn b j) := by
  subst hn
  rw [← finProdFinEquiv.sum_comp, Fintype.sum_prod_type]
  refine Finset.sum_congr rfl fun b _ => Finset.sum_congr rfl fun j _ => congrArg f (Fin.ext ?_)
  show j.val + W * b.val = b.val * W + j.val
  rw [Nat.mul_comm, Nat.add_comm]

/-- The blocks `0 … n`. -/
def upTo (B n : ℕ) : Finset (Fin B) := Finset.univ.filter fun b => b.val ≤ n

theorem upTo_zero {B : ℕ} (h : 0 < B) : upTo B 0 = {⟨0, h⟩} := by
  ext b
  simp only [upTo, Finset.mem_filter, Finset.mem_univ, true_and, Finset.mem_singleton, Fin.ext_iff]
  omega

theorem upTo_succ {B : ℕ} (n : ℕ) (h : n + 1 < B) : upTo B (n + 1) = insert ⟨n + 1, h⟩ (upTo B n) := by
  ext b
  simp only [upTo, Finset.mem_filter, Finset.mem_univ, true_and, Finset.mem_insert, Fin.ext_iff]
  omega

theorem upTo_last {B n : ℕ} (h : B ≤ n + 1) : upTo B n = Finset.univ := by
  ext b
  have := b.isLt
  simp only [upTo, Finset.mem_filter, Finset.mem_univ, true_and, iff_true]
  omega

/-- The running sum starts at block `0`. -/
theorem sum_upTo_zero {M : Type*} [AddCommMonoid M] {B : ℕ} (h : 0 < B) (P : Fin B → M) :
    ∑ b ∈ upTo B 0, P b = P ⟨0, h⟩ := by
  rw [upTo_zero h, Finset.sum_singleton]

/-- The running sum grows by the next block. -/
theorem sum_upTo_succ {M : Type*} [AddCommMonoid M] {B : ℕ} (n : ℕ) (h : n + 1 < B) (P : Fin B → M) :
    ∑ b ∈ upTo B (n + 1), P b = (∑ b ∈ upTo B n, P b) + P ⟨n + 1, h⟩ := by
  rw [upTo_succ n h, Finset.sum_insert, add_comm]
  simp only [upTo, Finset.mem_filter, Finset.mem_univ, true_and]
  omega

/-- After the last block the running sum is the whole sum. -/
theorem sum_upTo_last {M : Type*} [AddCommMonoid M] {B n : ℕ} (h : B ≤ n + 1) (P : Fin B → M) :
    ∑ b ∈ upTo B n, P b = ∑ b, P b := by
  rw [upTo_last h]

end SumBlocks
-- ==== Proof.SwigluSpec.lean ====
/-
  The gated feed-forward layer of eight experts, as one function of its four argument arrays over the extended reals.

  For expert `e`, token row `r` and hidden column `i`:
    * the projection of the row through a weight array `W` is `proj X W e r i = ∑ₖ X[e, r, k] · W[e, k, i]` (1024 terms);
    * the hidden value is `(g · σ(g)) · u` with `g` the projection through the gate weights, `u` the projection
      through the up weights and `σ(g) = 1 / (1 + e^(-g))` the logistic function;
    * the result at output column `d` is `∑ᵢ hidden[e, r, i] · W_down[e, i, d]` over the 2816 hidden columns.

  The hidden axis splits into 11 blocks of 256 columns. `partialOut` is one block's share of the result, and the
  result is the sum of the eleven shares (`out_eq_sum_partial`): a regrouping of one sum in a commutative monoid,
  which holds at infinite values too.
-/
import Idealize.ShloMosaic.PureOps.Ideal
import Idealize.ShloMosaic.Lib.ValueIdx
import proofs.«122459_j32822140076135_2_alg».proof.Proof.SumBlocks

noncomputable section

open scoped BigOperators

namespace Swiglu

open Idealize.ShloMosaic Idealize.ShloMosaic.ValueIdx

/-- A rank-3 array of extended reals. -/
abbrev Arr3 (a b c : ℕ) : Type := FVec Ideal ⟨3, ![a, b, c]⟩ .f32

/-- A token row projected through expert `e`'s weights, at hidden column `i`. -/
def proj (X : Arr3 8 2048 1024) (W : Arr3 8 1024 2816) (e : Fin 8) (r : Fin 2048) (i : Fin 2816) : EReal :=
  ∑ k : Fin 1024, X (ix3 e r k) * W (ix3 e k i)

/-- The gated hidden value: `(g · σ(g)) · u`. -/
def hidden (X : Arr3 8 2048 1024) (WG WU : Arr3 8 1024 2816) (e : Fin 8) (r : Fin 2048) (i : Fin 2816) : EReal :=
  (proj X WG e r i * Ideal.logistic (proj X WG e r i)) * proj X WU e r i

/-- The layer's result at expert `e`, row `r`, column `d`. -/
def outAt (X : Arr3 8 2048 1024) (WG WU : Arr3 8 1024 2816) (WD : Arr3 8 2816 1024)
    (e : Fin 8) (r : Fin 2048) (d : Fin 1024) : EReal :=
  ∑ i : Fin 2816, hidden X WG WU e r i * WD (ix3 e i d)

/-- The layer's result array. -/
def out (X : Arr3 8 2048 1024) (WG WU : Arr3 8 1024 2816) (WD : Arr3 8 2816 1024) : Arr3 8 2048 1024 :=
  fun j => outAt X WG WU WD (j 0) (j 1) (j 2)

/-- Hidden column `j` of block `b`: column `256 b + j`. -/
abbrev col (b : Fin 11) (j : Fin 256) : Fin 2816 := SumBlocks.pos 11 256 rfl b j

/-- Block `b`'s share of the result: the 256 hidden columns of the block. -/
def partialOut (X : Arr3 8 2048 1024) (WG WU : Arr3 8 1024 2816) (WD : Arr3 8 2816 1024)
    (e : Fin 8) (r : Fin 2048) (d : Fin 1024) (b : Fin 11) : EReal :=
  ∑ j : Fin 256, hidden X WG WU e r (col b j) * WD (ix3 e (col b j) d)

/-- The result is the sum of the eleven blocks' shares. -/
theorem outAt_eq_sum_partial (X : Arr3 8 2048 1024) (WG WU : Arr3 8 1024 2816) (WD : Arr3 8 2816 1024)
    (e : Fin 8) (r : Fin 2048) (d : Fin 1024) :
    outAt X WG WU WD e r d = ∑ b : Fin 11, partialOut X WG WU WD e r d b :=
  SumBlocks.sum_eq_sum_blocks 11 256 rfl fun i => hidden X WG WU e r i * WD (ix3 e i d)

/-- The running sum of the shares of blocks `0 … n`. -/
def runningOut (X : Arr3 8 2048 1024) (WG WU : Arr3 8 1024 2816) (WD : Arr3 8 2816 1024)
    (e : Fin 8) (r : Fin 2048) (d : Fin 1024) (n : ℕ) : EReal :=
  ∑ b ∈ SumBlocks.upTo 11 n, partialOut X WG WU WD e r d b

theorem runningOut_zero (X : Arr3 8 2048 1024) (WG WU : Arr3 8 1024 2816) (WD : Arr3 8 2816 1024)
    (e : Fin 8) (r : Fin 2048) (d : Fin 1024) :
    runningOut X WG WU WD e r d 0 = partialOut X WG WU WD e r d ⟨0, by decide⟩ :=
  SumBlocks.sum_upTo_zero (by decide) _

theorem runningOut_succ (X : Arr3 8 2048 1024) (WG WU : Arr3 8 1024 2816) (WD : Arr3 8 2816 1024)
    (e : Fin 8) (r : Fin 2048) (d : Fin 1024) (n : ℕ) (h : n + 1 < 11) :
    runningOut X WG WU WD e r d (n + 1)
      = runningOut X WG WU WD e r d n + partialOut X WG WU WD e r d ⟨n + 1, h⟩ :=
  SumBlocks.sum_upTo_succ n h _

/-- After block 10 the running sum is the result. -/
theorem runningOut_last (X : Arr3 8 2048 1024) (WG WU : Arr3 8 1024 2816) (WD : Arr3 8 2816 1024)
    (e : Fin 8) (r : Fin 2048) (d : Fin 1024) :
    runningOut X WG WU WD e r d 10 = outAt X WG WU WD e r d := by
  rw [outAt_eq_sum_partial]
  exact SumBlocks.sum_upTo_last (by decide) _

end Swiglu

end
-- ==== Proof.TileShare.lean ====
/-
  One grid step's contribution to the result, in the layer's own terms.

  If the cached token tile's row r is row ρ of expert e's tokens, and the step's weight tiles are the columns of hidden
  block b of expert e's weights, then
    * each projection tile entry (r, j) is the layer's projection of row ρ at hidden column 256 b + j,
    * the hidden tile entry (r, j) is the layer's hidden value there, and
    * the step's product with the down-weight tile, at (r, d), is block b's share of the layer's result at (e, ρ, d).
-/
import proofs.«122459_j32822140076135_2_alg».proof.Proof.StepPayload
import proofs.«122459_j32822140076135_2_alg».proof.Proof.SwigluSpec

noncomputable section

open scoped BigOperators

namespace Cert.KernelIdeal.Share

open Cert.KernelIdeal Cert.KernelIdeal.Gen Cert.KernelIdeal.Payload Idealize.ShloMosaic Idealize.ShloMosaic.ValueIdx

/-- A projection tile's entry is the layer's projection. -/
theorem projTile_eq (X : Swiglu.Arr3 8 2048 1024) (W : Swiglu.Arr3 8 1024 2816) (e : Fin 8) (ρ : Fin 2048) (b : Fin 11)
    (a : FVec Ideal S1024x1024 .bf16) (w : FVec Ideal S1x1024x256 .f32) (r : Fin 1024)
    (ha : ∀ k : Fin 1024, a (ix2 r k) = X (ix3 e ρ k))
    (hw : ∀ (k : Fin 1024) (j : Fin 256), w (ix3 (0 : Fin 1) k j) = W (ix3 e k (Swiglu.col b j))) (j : Fin 256) :
    projTile a w (ix2 r j) = Swiglu.proj X W e ρ (Swiglu.col b j) := by
  rw [projTile_apply]
  unfold Swiglu.proj
  exact Finset.sum_congr rfl fun k _ => by rw [ha k, hw k j]

/-- The hidden tile's entry is the layer's hidden value. -/
theorem hiddenTile_eq (X : Swiglu.Arr3 8 2048 1024) (WG WU : Swiglu.Arr3 8 1024 2816) (e : Fin 8) (ρ : Fin 2048) (b : Fin 11)
    (a : FVec Ideal S1024x1024 .bf16) (wg wu : FVec Ideal S1x1024x256 .f32) (r : Fin 1024)
    (ha : ∀ k : Fin 1024, a (ix2 r k) = X (ix3 e ρ k))
    (hg : ∀ (k : Fin 1024) (j : Fin 256), wg (ix3 (0 : Fin 1) k j) = WG (ix3 e k (Swiglu.col b j)))
    (hu : ∀ (k : Fin 1024) (j : Fin 256), wu (ix3 (0 : Fin 1) k j) = WU (ix3 e k (Swiglu.col b j))) (j : Fin 256) :
    hiddenTile a wg wu (ix2 r j) = Swiglu.hidden X WG WU e ρ (Swiglu.col b j) := by
  rw [hiddenTile_apply, projTile_eq X WG e ρ b a wg r ha hg j, projTile_eq X WU e ρ b a wu r ha hu j]
  rfl

/-- The step's down product is block b's share of the result. -/
theorem share_eq (X : Swiglu.Arr3 8 2048 1024) (WG WU : Swiglu.Arr3 8 1024 2816) (WD : Swiglu.Arr3 8 2816 1024)
    (e : Fin 8) (ρ : Fin 2048) (b : Fin 11)
    (a : FVec Ideal S1024x1024 .bf16) (wg wu : FVec Ideal S1x1024x256 .f32) (wd : FVec Ideal S1x256x1024 .f32) (r d : Fin 1024)
    (ha : ∀ k : Fin 1024, a (ix2 r k) = X (ix3 e ρ k))
    (hg : ∀ (k : Fin 1024) (j : Fin 256), wg (ix3 (0 : Fin 1) k j) = WG (ix3 e k (Swiglu.col b j)))
    (hu : ∀ (k : Fin 1024) (j : Fin 256), wu (ix3 (0 : Fin 1) k j) = WU (ix3 e k (Swiglu.col b j)))
    (hd : ∀ (j : Fin 256) (d : Fin 1024), wd (ix3 (0 : Fin 1) j d) = WD (ix3 e (Swiglu.col b j) d)) :
    ∑ j : Fin 256, hiddenTile a wg wu (ix2 r j) * wd (ix3 (0 : Fin 1) j d) = Swiglu.partialOut X WG WU WD e ρ d b := by
  unfold Swiglu.partialOut
  exact Finset.sum_congr rfl fun j _ => by rw [hiddenTile_eq X WG WU e ρ b a wg wu r ha hg hu j, hd j d]

end Cert.KernelIdeal.Share

end
-- ==== Proof.StepValue.lean ====
/-
  What the accumulator holds after a step, in the layer's own terms.

  * After the first step of a sweep (hidden block 0) the accumulator's entry (r, d) is 0 + block 0's share of the
    result: the running sum over the blocks 0 … 0.
  * After a later step, on hidden block n + 1, it is what the step before left — the running sum over the blocks
    0 … n — plus block n + 1's share: the running sum over the blocks 0 … n + 1.
  Both are stated over any vectors that hold the right entries of the argument arrays; 0 + x = x and the running sums
  grow one block at a time in any commutative monoid, so no finiteness enters.
-/
import proofs.«122459_j32822140076135_2_alg».proof.Proof.TileShare

noncomputable section

open scoped BigOperators

namespace Cert.KernelIdeal.StepValue

open Cert.KernelIdeal Cert.KernelIdeal.Gen Cert.KernelIdeal.Payload Cert.KernelIdeal.Share
open Idealize.ShloMosaic Idealize.ShloMosaic.ValueIdx

/-- The first step of a sweep. -/
theorem first_acc (X : Swiglu.Arr3 8 2048 1024) (WG WU : Swiglu.Arr3 8 1024 2816) (WD : Swiglu.Arr3 8 2816 1024)
    (e : Fin 8) (ρ : Fin 2048) (b : Fin 11) (hb : b.val = 0)
    (x0 : FVec Ideal S1x1024x1024 .f32) (x1 x2 : FVec Ideal S1x1024x256 .f32) (x3 : FVec Ideal S1x256x1024 .f32) (r d : Fin 1024)
    (h0 : ∀ k : Fin 1024, x0 (ix3 (0 : Fin 1) r k) = X (ix3 e ρ k))
    (h1 : ∀ (k : Fin 1024) (j : Fin 256), x1 (ix3 (0 : Fin 1) k j) = WG (ix3 e k (Swiglu.col b j)))
    (h2 : ∀ (k : Fin 1024) (j : Fin 256), x2 (ix3 (0 : Fin 1) k j) = WU (ix3 e k (Swiglu.col b j)))
    (h3 : ∀ (j : Fin 256) (d : Fin 1024), x3 (ix3 (0 : Fin 1) j d) = WD (ix3 e (Swiglu.col b j) d)) :
    k0_pay3 (F := Ideal) (k0_pay2 (F := Ideal) x0) x1 x2 x3 (k0_pay1 (F := Ideal)) (ix2 r d) = Swiglu.runningOut X WG WU WD e ρ d b.val := by
  obtain ⟨bv, hbv⟩ := b
  obtain rfl : bv = 0 := hb
  rw [update_apply, zeros_apply, zero_add]
  show _ = Swiglu.runningOut X WG WU WD e ρ d 0
  rw [Swiglu.runningOut_zero]
  exact share_eq X WG WU WD e ρ ⟨0, hbv⟩ (k0_pay2 (F := Ideal) x0) x1 x2 x3 r d (fun k => (cache_apply x0 r k).trans (h0 k)) h1 h2 h3

/-- A later step. -/
theorem next_acc (X : Swiglu.Arr3 8 2048 1024) (WG WU : Swiglu.Arr3 8 1024 2816) (WD : Swiglu.Arr3 8 2816 1024)
    (e : Fin 8) (ρ : Fin 2048) (b : Fin 11) (n : ℕ) (hb : b.val = n + 1)
    (xs1 : FVec Ideal S1024x1024 .bf16) (x1 x2 : FVec Ideal S1x1024x256 .f32) (x3 : FVec Ideal S1x256x1024 .f32)
    (xs0 : FVec Ideal S1024x1024 .f32) (r d : Fin 1024)
    (hc : ∀ k : Fin 1024, xs1 (ix2 r k) = X (ix3 e ρ k))
    (h1 : ∀ (k : Fin 1024) (j : Fin 256), x1 (ix3 (0 : Fin 1) k j) = WG (ix3 e k (Swiglu.col b j)))
    (h2 : ∀ (k : Fin 1024) (j : Fin 256), x2 (ix3 (0 : Fin 1) k j) = WU (ix3 e k (Swiglu.col b j)))
    (h3 : ∀ (j : Fin 256) (d : Fin 1024), x3 (ix3 (0 : Fin 1) j d) = WD (ix3 e (Swiglu.col b j) d))
    (hacc : xs0 (ix2 r d) = Swiglu.runningOut X WG WU WD e ρ d n) :
    k0_pay3 (F := Ideal) xs1 x1 x2 x3 xs0 (ix2 r d) = Swiglu.runningOut X WG WU WD e ρ d b.val := by
  obtain ⟨bv, hbv⟩ := b
  obtain rfl : bv = n + 1 := hb
  rw [update_apply, hacc]
  show _ = Swiglu.runningOut X WG WU WD e ρ d (n + 1)
  rw [Swiglu.runningOut_succ X WG WU WD e ρ d n hbv]
  exact congrArg (Swiglu.runningOut X WG WU WD e ρ d n + ·) (share_eq X WG WU WD e ρ ⟨n + 1, hbv⟩ xs1 x1 x2 x3 r d hc h1 h2 h3)

end Cert.KernelIdeal.StepValue

end
-- ==== Proof.BlockReads.lean ====
/-
  Where a grid point's blocks sit in the argument arrays.

  The grid has 8 · 2 · 11 = 176 points; point `n` works for expert `n / 22`, on token rows `1024 q … 1024 q + 1023`
  with `q = (n / 11) mod 2`, and on the hidden columns `256 b … 256 b + 255` with `b = n mod 11`. At that point
    * the token block's entry (0, r, k) is X[e, 1024 q + r, k];
    * the gate and up weight blocks' entry (0, k, j) is W[e, k, 256 b + j];
    * the down weight block's entry (0, j, d) is W_down[e, 256 b + j, d];
    * the output block's entry (0, r, d) sits at [e, 1024 q + r, d] of the result array.
  The block index of every window at every point is decided once over the whole grid.
-/
import proofs.«122459_j32822140076135_2_alg».proof.Proof.Gen.KernelIdeal.Frame
import proofs.«122459_j32822140076135_2_alg».proof.Proof.SwigluSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hN : cfg0.N = 176 := N_0

/-- The expert a grid point works for. -/
def expert (n : ℕ) (h : n < cfg0.N) : Fin 8 := ⟨n / 22, by have := lt_of_lt_of_eq h hN; omega⟩
/-- The token row block of a grid point. -/
def rowBlk (n : ℕ) : Fin 2 := ⟨n / 11 % 2, by omega⟩
/-- The hidden column block of a grid point. -/
def hidBlk (n : ℕ) : Fin 11 := ⟨n % 11, by omega⟩
/-- Row `r` of row block `q`. -/
def row (q : Fin 2) (r : Fin 1024) : Fin 2048 := ⟨q.val * 1024 + r.val, by have := q.isLt; have := r.isLt; omega⟩

@[simp] theorem expert_val (n : ℕ) (h : n < cfg0.N) : (expert n h).val = n / 22 := rfl
@[simp] theorem rowBlk_val (n : ℕ) : (rowBlk n).val = n / 11 % 2 := rfl
@[simp] theorem hidBlk_val (n : ℕ) : (hidBlk n).val = n % 11 := rfl
@[simp] theorem row_val (q : Fin 2) (r : Fin 1024) : (row q r).val = q.val * 1024 + r.val := rfl

/-- Every window's block index at every grid point. -/
theorem idx_facts : ∀ t : Fin cfg0.N,
    (win0_0.index t (0 : Fin 3) = t.val / 22 ∧ win0_0.index t (1 : Fin 3) = t.val / 11 % 2 ∧ win0_0.index t (2 : Fin 3) = 0)
    ∧ (win0_1.index t (0 : Fin 3) = t.val / 22 ∧ win0_1.index t (1 : Fin 3) = 0 ∧ win0_1.index t (2 : Fin 3) = t.val % 11)
    ∧ (win0_2.index t (0 : Fin 3) = t.val / 22 ∧ win0_2.index t (1 : Fin 3) = 0 ∧ win0_2.index t (2 : Fin 3) = t.val % 11)
    ∧ (win0_3.index t (0 : Fin 3) = t.val / 22 ∧ win0_3.index t (1 : Fin 3) = t.val % 11 ∧ win0_3.index t (2 : Fin 3) = 0)
    ∧ (win0_4.index t (0 : Fin 3) = t.val / 22 ∧ win0_4.index t (1 : Fin 3) = t.val / 11 % 2 ∧ win0_4.index t (2 : Fin 3) = 0) :=
  (by decide +kernel : ∀ t : Fin grid0.N, _)

/-- The token block at a point, entry by entry. -/
theorem tokens_apply (c : Dev nD) (t : Fin cfg0.N) (r k : Fin 1024) :
    (iblk m c 0 t : Vec F S1x1024x1024 .f32) (ix3 (0 : Fin 1) r k)
      = (m ((c : Thread nD τ).loc main_arg0) : FVec F S8x2048x1024 .f32) (ix3 (expert t.val t.isLt) (row (rowBlk t.val) r) k) := by
  obtain ⟨⟨e0, e1, e2⟩, -⟩ := idx_facts t
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = t.val / 22; omega
  | ⟨1, _⟩ => show win0_0.index t (1 : Fin 3) * 1024 + 1 * r.val = t.val / 11 % 2 * 1024 + r.val; omega
  | ⟨2, _⟩ => show win0_0.index t (2 : Fin 3) * 1024 + 1 * k.val = k.val; omega

/-- The gate weight block at a point, entry by entry. -/
theorem gate_apply (c : Dev nD) (t : Fin cfg0.N) (k : Fin 1024) (j : Fin 256) :
    (iblk m c 1 t : Vec F S1x1024x256 .f32) (ix3 (0 : Fin 1) k j)
      = (m ((c : Thread nD τ).loc main_arg1) : FVec F S8x1024x2816 .f32) (ix3 (expert t.val t.isLt) k (Swiglu.col (hidBlk t.val) j)) := by
  obtain ⟨-, ⟨e0, e1, e2⟩, -⟩ := idx_facts t
  show V m c main_arg1 (((cfg0.win 1).blk t).view.emb (ix3 (0 : Fin 1) k j)) = _
  refine congrArg (V m c main_arg1) (funext fun a => Fin.ext ?_)
  match a with
  | ⟨0, _⟩ => show win0_1.index t (0 : Fin 3) * 1 + 1 * 0 = t.val / 22; omega
  | ⟨1, _⟩ => show win0_1.index t (1 : Fin 3) * 1024 + 1 * k.val = k.val; omega
  | ⟨2, _⟩ => show win0_1.index t (2 : Fin 3) * 256 + 1 * j.val = t.val % 11 * 256 + j.val; omega

/-- The up weight block at a point, entry by entry. -/
theorem up_apply (c : Dev nD) (t : Fin cfg0.N) (k : Fin 1024) (j : Fin 256) :
    (iblk m c 2 t : Vec F S1x1024x256 .f32) (ix3 (0 : Fin 1) k j)
      = (m ((c : Thread nD τ).loc main_arg2) : FVec F S8x1024x2816 .f32) (ix3 (expert t.val t.isLt) k (Swiglu.col (hidBlk t.val) j)) := by
  obtain ⟨-, -, ⟨e0, e1, e2⟩, -⟩ := idx_facts t
  show V m c main_arg2 (((cfg0.win 2).blk t).view.emb (ix3 (0 : Fin 1) k j)) = _
  refine congrArg (V m c main_arg2) (funext fun a => Fin.ext ?_)
  match a with
  | ⟨0, _⟩ => show win0_2.index t (0 : Fin 3) * 1 + 1 * 0 = t.val / 22; omega
  | ⟨1, _⟩ => show win0_2.index t (1 : Fin 3) * 1024 + 1 * k.val = k.val; omega
  | ⟨2, _⟩ => show win0_2.index t (2 : Fin 3) * 256 + 1 * j.val = t.val % 11 * 256 + j.val; omega

/-- The down weight block at a point, entry by entry. -/
theorem down_apply (c : Dev nD) (t : Fin cfg0.N) (j : Fin 256) (d : Fin 1024) :
    (iblk m c 3 t : Vec F S1x256x1024 .f32) (ix3 (0 : Fin 1) j d)
      = (m ((c : Thread nD τ).loc main_arg3) : FVec F S8x2816x1024 .f32) (ix3 (expert t.val t.isLt) (Swiglu.col (hidBlk t.val) j) d) := by
  obtain ⟨-, -, -, ⟨e0, e1, e2⟩, -⟩ := idx_facts t
  show V m c main_arg3 (((cfg0.win 3).blk t).view.emb (ix3 (0 : Fin 1) j d)) = _
  refine congrArg (V m c main_arg3) (funext fun a => Fin.ext ?_)
  match a with
  | ⟨0, _⟩ => show win0_3.index t (0 : Fin 3) * 1 + 1 * 0 = t.val / 22; omega
  | ⟨1, _⟩ => show win0_3.index t (1 : Fin 3) * 256 + 1 * j.val = t.val % 11 * 256 + j.val; omega
  | ⟨2, _⟩ => show win0_3.index t (2 : Fin 3) * 1024 + 1 * d.val = d.val; omega

end Cert.KernelIdeal.Blocks

end
-- ==== Proof.SweepInvariant.lean ====
/-
  What the two carried buffers hold after every grid point.

  By induction on the grid point n (never by enumerating the 176 points): after point n, working for expert e on row
  block q and hidden block b = n mod 11,
    * the cached token tile's entry (r, k) is X[e, 1024 q + r, k] — written at the sweep's first step and left alone
      by the later ones, which work for the same expert and row block;
    * the accumulator's entry (r, d) is the running sum, over the hidden blocks 0 … b, of the blocks' shares of the
      layer's result at (e, 1024 q + r, d).
  The first step of a sweep starts the running sum at block 0; each later step adds its block to what the step before
  left.
-/
import proofs.«122459_j32822140076135_2_alg».proof.Proof.StepPieces
import proofs.«122459_j32822140076135_2_alg».proof.Proof.StepValue
import proofs.«122459_j32822140076135_2_alg».proof.Proof.BlockReads

noncomputable section

namespace Cert.KernelIdeal.Sweep

open Cert.KernelIdeal Cert.KernelIdeal.Gen Cert.KernelIdeal.Blocks Cert.KernelIdeal.Payload Cert.KernelIdeal.Pieces
open Cert.KernelIdeal.StepValue
open Idealize.ShloMosaic Idealize.ShloMosaic.TcCoe Idealize.SL.Sem Idealize.ShloMosaic.ValueIdx

variable (m : (ℓ : Loc nD τ sig) → Buf (Elt Ideal) ℓ)

/-- The four argument arrays on core `c`. -/
abbrev argX (c : Dev nD) : Swiglu.Arr3 8 2048 1024 := m ((c : Thread nD τ).loc main_arg0)
abbrev argG (c : Dev nD) : Swiglu.Arr3 8 1024 2816 := m ((c : Thread nD τ).loc main_arg1)
abbrev argU (c : Dev nD) : Swiglu.Arr3 8 1024 2816 := m ((c : Thread nD τ).loc main_arg2)
abbrev argD (c : Dev nD) : Swiglu.Arr3 8 2816 1024 := m ((c : Thread nD τ).loc main_arg3)

/-- What the carried buffers hold after point `n`. -/
structure Inv (c : Dev nD) (n : ℕ) (h : n < cfg0.N) : Prop where
  cache : ∀ r k : Fin 1024, ((outsAt0 m c n h).2.2 : FVec Ideal S1024x1024 .bf16) (ix2 r k)
      = argX m c (ix3 (expert n h) (row (rowBlk n) r) k)
  acc : ∀ r d : Fin 1024, ((outsAt0 m c n h).2.1 : FVec Ideal S1024x1024 .f32) (ix2 r d)
      = Swiglu.runningOut (argX m c) (argG m c) (argU m c) (argD m c) (expert n h) (row (rowBlk n) r) d (n % 11)

/-- After the first step of a sweep. -/
theorem inv_first (c : Dev nD) (t : Fin cfg0.N) (h0 : t.val % 11 = 0) : Inv m c t.val t.isLt := by
  have h1 : ¬t.val % 11 = 10 := by omega
  have hb : (hidBlk t.val).val = 0 := h0
  refine ⟨fun r k => ?_, fun r d => ?_⟩
  · rw [outsAt0_A m c t h0 h1]
    dsimp only
    refine (congrFun (cache_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r k)).trans ?_
    exact (cache_apply (iblk m c 0 t) r k).trans (tokens_apply m c t r k)
  · rw [outsAt0_A m c t h0 h1]
    dsimp only
    refine (congrFun (acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r d)).trans ?_
    exact first_acc (argX m c) (argG m c) (argU m c) (argD m c) (expert t.val t.isLt) (row (rowBlk t.val) r) (hidBlk t.val) hb
      (iblk m c 0 t) (iblk m c 1 t) (iblk m c 2 t) (iblk m c 3 t) r d
      (tokens_apply m c t r) (gate_apply m c t) (up_apply m c t) (down_apply m c t)

/-- After a later step, from the step before. -/
theorem inv_next (c : Dev nD) (n : ℕ) (h : n + 1 < cfg0.N) (h0 : ¬(n + 1) % 11 = 0)
    (ih : Inv m c n (Nat.lt_of_succ_lt h)) : Inv m c (n + 1) h := by
  have hN' : n + 1 < 176 := lt_of_lt_of_eq h hN
  have he : expert (n + 1) h = expert n (Nat.lt_of_succ_lt h) := Fin.ext (by simp only [expert_val]; omega)
  have hq : rowBlk (n + 1) = rowBlk n := Fin.ext (by simp only [rowBlk_val]; omega)
  have hb : (hidBlk (n + 1)).val = n % 11 + 1 := by simp only [hidBlk_val]; omega
  have hcache : ∀ (r k : Fin 1024), ((outsAt0 m c n (Nat.lt_of_succ_lt h)).2.2 : FVec Ideal S1024x1024 .bf16) (ix2 r k)
      = argX m c (ix3 (expert (n + 1) h) (row (rowBlk (n + 1)) r) k) := fun r k => by
    rw [he, hq]; exact ih.cache r k
  have hacc : ∀ (r d : Fin 1024), ((outsAt0 m c n (Nat.lt_of_succ_lt h)).2.1 : FVec Ideal S1024x1024 .f32) (ix2 r d)
      = Swiglu.runningOut (argX m c) (argG m c) (argU m c) (argD m c) (expert (n + 1) h) (row (rowBlk (n + 1)) r) d (n % 11) := fun r d => by
    rw [he, hq]; exact ih.acc r d
  by_cases h1 : (n + 1) % 11 = 10
  · refine ⟨fun r k => ?_, fun r d => ?_⟩
    · rw [outsAt0_C m c (⟨n + 1, h⟩ : Fin cfg0.N) h0 h1]
      dsimp only
      exact hcache r k
    · rw [outsAt0_C m c (⟨n + 1, h⟩ : Fin cfg0.N) h0 h1]
      dsimp only
      refine (congrFun (acc_last (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hc => h0 ((hcond0_0 (⟨n + 1, h⟩ : Fin cfg0.N)).mp hc)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2) (ix2 r d)).trans ?_
      exact next_acc (argX m c) (argG m c) (argU m c) (argD m c) (expert (n + 1) h) (row (rowBlk (n + 1)) r) (hidBlk (n + 1)) (n % 11) hb
        (outsAt0 m c n (Nat.lt_of_succ_lt h)).2.2 (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 r d
        (hcache r) (gate_apply m c (⟨n + 1, h⟩ : Fin cfg0.N)) (up_apply m c (⟨n + 1, h⟩ : Fin cfg0.N)) (down_apply m c (⟨n + 1, h⟩ : Fin cfg0.N)) (hacc r d)
  · refine ⟨fun r k => ?_, fun r d => ?_⟩
    · rw [outsAt0_B m c (⟨n + 1, h⟩ : Fin cfg0.N) h0 h1]
      dsimp only
      exact hcache r k
    · rw [outsAt0_B m c (⟨n + 1, h⟩ : Fin cfg0.N) h0 h1]
      dsimp only
      refine (congrFun (acc_middle (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) (fun hc => h0 ((hcond0_0 (⟨n + 1, h⟩ : Fin cfg0.N)).mp hc)) (fun hc => h1 ((hcond0_1 (⟨n + 1, h⟩ : Fin cfg0.N)).mp hc)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2) (ix2 r d)).trans ?_
      exact next_acc (argX m c) (argG m c) (argU m c) (argD m c) (expert (n + 1) h) (row (rowBlk (n + 1)) r) (hidBlk (n + 1)) (n % 11) hb
        (outsAt0 m c n (Nat.lt_of_succ_lt h)).2.2 (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 r d
        (hcache r) (gate_apply m c (⟨n + 1, h⟩ : Fin cfg0.N)) (up_apply m c (⟨n + 1, h⟩ : Fin cfg0.N)) (down_apply m c (⟨n + 1, h⟩ : Fin cfg0.N)) (hacc r d)

/-- After every grid point. -/
theorem inv (c : Dev nD) : ∀ (n : ℕ) (h : n < cfg0.N), Inv m c n h
  | 0, h => inv_first m c ⟨0, h⟩ (Nat.zero_mod 11)
  | n + 1, h => by
    by_cases h0 : (n + 1) % 11 = 0
    · exact inv_first m c ⟨n + 1, h⟩ h0
    · exact inv_next m c n h h0 (inv c n (Nat.lt_of_succ_lt h))

end Cert.KernelIdeal.Sweep

end
-- ==== Proof.KernelResult.lean ====
/-
  The kernel's result array.

  The output block is written back only after the last step of a sweep (hidden block 10), and what it then holds is
  the accumulator: the running sum over all eleven hidden blocks, which is the layer's result at the block's rows.
  Every entry (e, ρ, d) of the result array lies in exactly such a block — the one written back at the point
  (2 e + ρ / 1024) · 11 + 10 — so after the run the whole array is the layer's result of the argument arrays, and the
  argument arrays are as they were.
-/
import proofs.«122459_j32822140076135_2_alg».proof.Proof.Gen.KernelIdeal.Value
import proofs.«122459_j32822140076135_2_alg».proof.Proof.SweepInvariant

noncomputable section

namespace Cert.KernelIdeal.Result

open Cert.KernelIdeal Cert.KernelIdeal.Gen Cert.KernelIdeal.Blocks Cert.KernelIdeal.Payload Cert.KernelIdeal.Pieces
open Cert.KernelIdeal.Sweep
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's result of core `c`'s argument arrays. -/
abbrev result (c : Dev nD) : Buf (Elt Ideal) ((c : Thread nD τ).loc main_v0) :=
  Swiglu.out (argX m c) (argG m c) (argU m c) (argD m c)

/-- After the last step of a sweep the output's staging buffer holds the accumulator, recast as a block. -/
theorem staged_last (c : Dev nD) (t : Fin cfg0.N) (h0 : ¬t.val % 11 = 0) (h1 : t.val % 11 = 10) :
    (outsAt0 m c t.val t.isLt).1 = k0_pay4 (F := Ideal) (outsAt0 m c t.val t.isLt).2.1 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).trans
    (congrArg (k0_pay4 (F := Ideal)) (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).symm)

/-- What a write-back writes is the layer's result read through the point's block. -/
theorem flushed_eq (c : Dev nD) (t : Fin cfg0.N) (hf : (cfg0.win 4).flush t = true) :
    (dats m 0 c).flushed 4 t = ((cfg0.win 4).blk t).view.read (Elt Ideal) (result m c) := by
  have h1 : t.val % 11 = 10 := (flush0_4 t).mp hf
  have h0 : ¬t.val % 11 = 0 := by omega
  obtain ⟨-, -, -, -, ⟨e0, e1, e2⟩⟩ := idx_facts t
  rw [Value.flushed4, staged_last m c t h0 h1]
  funext j
  obtain ⟨u, r, d, rfl⟩ : ∃ (u : Fin 1) (r d : Fin 1024), j = ix3 u r d := ⟨j 0, j 1, j 2, eq_ix3 j⟩
  show k0_pay4 (F := Ideal) (outsAt0 m c t.val t.isLt).2.1 (ix3 u r d)
    = result m c (((cfg0.win 4).blk t).view.emb (ix3 u r d))
  have hi : ((cfg0.win 4).blk t).view.emb (ix3 u r d) = ix3 (expert t.val t.isLt) (row (rowBlk t.val) r) d :=
    funext fun a => Fin.ext (by
      have hu : u.val = 0 := by omega
      match a with
      | ⟨0, _⟩ => show win0_4.index t (0 : Fin 3) * 1 + 1 * u.val = t.val / 22; omega
      | ⟨1, _⟩ => show win0_4.index t (1 : Fin 3) * 1024 + 1 * r.val = t.val / 11 % 2 * 1024 + r.val; omega
      | ⟨2, _⟩ => show win0_4.index t (2 : Fin 3) * 1024 + 1 * d.val = d.val; omega)
  rw [hi, copyOut_apply, (inv m c t.val t.isLt).acc r d, h1, Swiglu.runningOut_last]
  rfl

/-- Every entry of the result array is in a block that is written back. -/
theorem cover (c : Dev nD) (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  have hn : ((i 0).val * 2 + (i 1).val / 1024) * 11 + 10 < cfg0.N := by rw [hN]; omega
  obtain ⟨-, -, -, -, ⟨e0, e1, e2⟩⟩ := idx_facts ⟨((i 0).val * 2 + (i 1).val / 1024) * 11 + 10, hn⟩
  have e0' : win0_4.index ⟨((i 0).val * 2 + (i 1).val / 1024) * 11 + 10, hn⟩ (0 : Fin 3) = (((i 0).val * 2 + (i 1).val / 1024) * 11 + 10) / 22 := e0
  have e1' : win0_4.index ⟨((i 0).val * 2 + (i 1).val / 1024) * 11 + 10, hn⟩ (1 : Fin 3) = (((i 0).val * 2 + (i 1).val / 1024) * 11 + 10) / 11 % 2 := e1
  refine ⟨⟨((i 0).val * 2 + (i 1).val / 1024) * 11 + 10, hn⟩, (flush0_4 _).mpr (by show (((i 0).val * 2 + (i 1).val / 1024) * 11 + 10) % 11 = 10; omega), ?_⟩
  show i ∈ ((View.whole main_v0).slice (win0_4.rect ⟨((i 0).val * 2 + (i 1).val / 1024) * 11 + 10, hn⟩)).set
  rw [View.set_slice_whole, Rect.mem_set_unit]
  intro a
  match a with
  | ⟨0, _⟩ =>
    show win0_4.index ⟨((i 0).val * 2 + (i 1).val / 1024) * 11 + 10, hn⟩ (0 : Fin 3) * 1 ≤ (i 0).val
      ∧ (i 0).val < win0_4.index ⟨((i 0).val * 2 + (i 1).val / 1024) * 11 + 10, hn⟩ (0 : Fin 3) * 1 + 1
    omega
  | ⟨1, _⟩ =>
    show win0_4.index ⟨((i 0).val * 2 + (i 1).val / 1024) * 11 + 10, hn⟩ (1 : Fin 3) * 1024 ≤ (i 1).val
      ∧ (i 1).val < win0_4.index ⟨((i 0).val * 2 + (i 1).val / 1024) * 11 + 10, hn⟩ (1 : Fin 3) * 1024 + 1024
    omega
  | ⟨2, _⟩ =>
    show win0_4.index ⟨((i 0).val * 2 + (i 1).val / 1024) * 11 + 10, hn⟩ (2 : Fin 3) * 1024 ≤ (i 2).val
      ∧ (i 2).val < win0_4.index ⟨((i 0).val * 2 + (i 1).val / 1024) * 11 + 10, hn⟩ (2 : Fin 3) * 1024 + 1024
    omega

/-- After the run the result array is the layer's result. -/
theorem final (c : Dev nD) : (dats m 0 c).arrAt 4 cfg0.N = result m c :=
  (dats m 0 c).arrAt_eq_of_cover 4 (result m c) (flushed_eq m c) (cover c)

/-- The kernel's run: the result array at the layer's result of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference computes the layer's result.

  Read one operation at a time, the reference's last stage at (e, ρ, d) is the sum over the 2816 hidden columns i of
  its hidden value at (e, ρ, i) times W_down[e, i, d]; its hidden value is (g · (1 / (1 + e^(-g)))) · u with g and u
  its two 1024-term products of the token row with the gate and up weights. The quotient 1 / (1 + e^(-g)) is the
  logistic function by definition, and the constant is the real number one.
-/
import proofs.«122459_j32822140076135_2_alg».proof.Proof.Gen.ReferenceIdeal.Read
import proofs.«122459_j32822140076135_2_alg».proof.Proof.SwigluSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's product of the token rows with a weight array is the layer's projection. -/
theorem proj_eq (x0 : Swiglu.Arr3 8 2048 1024) (w : Swiglu.Arr3 8 1024 2816) (e : Fin 8) (ρ : Fin 2048) (i : Fin 2816) :
    val_main_v0 (F := Ideal) x0 w (ix3 e ρ i) = Swiglu.proj x0 w e ρ i := by
  rw [val_main_v0_apply]
  unfold Swiglu.proj
  refine Finset.sum_congr rfl fun k _ => ?_
  have hl : lidx_main_v0 (ix3 e ρ i) k = ix3 e ρ k := funext fun a => by
    match a with
    | ⟨0, _⟩ => rfl
    | ⟨1, _⟩ => rfl
    | ⟨2, _⟩ => rfl
  have hr : ridx_main_v0 (ix3 e ρ i) k = ix3 e k i := funext fun a => by
    match a with
    | ⟨0, _⟩ => rfl
    | ⟨1, _⟩ => rfl
    | ⟨2, _⟩ => rfl
  rw [hl, hr]

/-- The reference's gated product is the layer's hidden value. -/
theorem hidden_eq (x0 : Swiglu.Arr3 8 2048 1024) (x1 x2 : Swiglu.Arr3 8 1024 2816) (e : Fin 8) (ρ : Fin 2048) (i : Fin 2816) :
    val_main_v3 (F := Ideal) x0 x1 x2 (ix3 e ρ i) = Swiglu.hidden x0 x1 x2 e ρ i := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply]
  have e1 : val_main_v1 (F := Ideal) x0 x2 (ix3 e ρ i) = Swiglu.proj x0 x2 e ρ i := proj_eq x0 x2 e ρ i
  rw [e1, proj_eq x0 x1 e ρ i]
  simp only [Ideal.mulf_def, Ideal.hostDivf_def, Ideal.addf_def, Ideal.hostUnary_exp_def, Ideal.hostNegf_def,
    Ideal.negf_def, Ideal.ofBits_def, Ideal.ofBits_one_f32]
  rfl

/-- The reference's result is the layer's result. -/
theorem result_eq (x0 : Swiglu.Arr3 8 2048 1024) (x1 x2 : Swiglu.Arr3 8 1024 2816) (x3 : Swiglu.Arr3 8 2816 1024) :
    val_main_v4 (F := Ideal) x0 x1 x2 x3 = Swiglu.out x0 x1 x2 x3 := by
  funext i
  obtain ⟨e, ρ, d, rfl⟩ : ∃ (e : Fin 8) (ρ : Fin 2048) (d : Fin 1024), i = ix3 e ρ d := ⟨i 0, i 1, i 2, eq_ix3 i⟩
  rw [val_main_v4_apply]
  show _ = Swiglu.outAt x0 x1 x2 x3 e ρ d
  unfold Swiglu.outAt
  refine Finset.sum_congr rfl fun k _ => ?_
  have hl : lidx_main_v4 (ix3 e ρ d) k = ix3 e ρ k := funext fun a => by
    match a with
    | ⟨0, _⟩ => rfl
    | ⟨1, _⟩ => rfl
    | ⟨2, _⟩ => rfl
  have hr : ridx_main_v4 (ix3 e ρ d) k = ix3 e k d := funext fun a => by
    match a with
    | ⟨0, _⟩ => rfl
    | ⟨1, _⟩ => rfl
    | ⟨2, _⟩ => rfl
  rw [hl, hr, hidden_eq]

end Cert.ReferenceIdeal.RefValue

end
-- ==== Proof.lean ====
/-
  A gated feed-forward layer of eight experts, computed by a tiled kernel and by three whole-array products: the two
  programs, idealized, end with the same result array.

  For expert e, token row ρ and output column d both compute
      ∑ᵢ ((g · σ(g)) · u)(e, ρ, i) · W_down[e, i, d]        (2816 hidden columns i)
  with g and u the 1024-term products of the token row with the gate and up weights and σ the logistic function
  1 / (1 + e^(-x)), over the extended reals.
    * The reference computes exactly this, one operation at a time.
    * The kernel sweeps the hidden axis in 11 blocks of 256 columns for each block of 1024 token rows, keeping the token
      block in a cache and adding each hidden block's share into an accumulator that starts at zero; after the last
      hidden block the accumulator is written to the result. The accumulated sum of the eleven shares is the one sum
      regrouped, an identity of a commutative monoid that holds for infinite values as well, so the precondition on the
      inputs is never opened; a change of float format is the identity at the ideal values.
  Each program runs without fault and leaves its arguments unchanged; the idealization rewrote nothing of the kernel.
-/
import proofs.«122459_j32822140076135_2_alg».proof.Defs
import proofs.«122459_j32822140076135_2_alg».proof.Proof.Gen.Kernel
import proofs.«122459_j32822140076135_2_alg».proof.Proof.Gen.Kernel.Skeleton
import proofs.«122459_j32822140076135_2_alg».proof.Proof.Gen.Kernel.Launch
import proofs.«122459_j32822140076135_2_alg».proof.Proof.Gen.Kernel.Points
import proofs.«122459_j32822140076135_2_alg».proof.Proof.Gen.Kernel.Frame
import proofs.«122459_j32822140076135_2_alg».proof.Proof.Gen.KernelIdeal
import proofs.«122459_j32822140076135_2_alg».proof.Proof.Gen.KernelIdeal.Skeleton
import proofs.«122459_j32822140076135_2_alg».proof.Proof.Gen.KernelIdeal.Launch
import proofs.«122459_j32822140076135_2_alg».proof.Proof.Gen.KernelIdeal.Points
import proofs.«122459_j32822140076135_2_alg».proof.Proof.Gen.KernelIdeal.Frame
import proofs.«122459_j32822140076135_2_alg».proof.Proof.Gen.ReferenceIdeal
import proofs.«122459_j32822140076135_2_alg».proof.Proof.Gen.KernelIdeal.Value
import proofs.«122459_j32822140076135_2_alg».proof.Proof.Gen.ReferenceIdeal.Run
import proofs.«122459_j32822140076135_2_alg».proof.Proof.Gen.ReferenceIdeal.Read
import proofs.«122459_j32822140076135_2_alg».proof.Proof.Gen.Pre_finite_inputs
import proofs.«122459_j32822140076135_2_alg».proof.Proof.KernelResult
import proofs.«122459_j32822140076135_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's result array ends at the layer's result of its
    arguments, and the reference's at the same function of its own: equal arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
